-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4x4096x64 : Shape := ⟨4, ![4, 4, 4096, 64]⟩
abbrev S_ : Shape := ⟨0, ![]⟩

class Facts : Prop where
  bcast_S_S4x4x4096x64 : S_.BroadcastsInDim S4x4x4096x64 (![] : Fin 0 → Fin S4x4x4096x64.rank)
  reducesTo_S4x4x4096x64_S_d0_1_2_3 : S4x4x4096x64.ReducesTo [0, 1, 2, 3] S_
  h_S_ : 0 < S_.numel

variable [Facts]

def fn {F : FTy → Type} [FloatOps F] (main_arg0 : FVec F S4x4x4096x64 .f32) (main_arg1 : FVec F S4x4x4096x64 .f32) (main_arg2 : FVec F S4x4x4096x64 .f32) : IVec S_ 1 :=
  let main_v0 : FVec F S4x4x4096x64 .f32 := Host.absf main_arg0
  let main_cst : FVec F S_ .f32 := constant S_ .f32 0x7F800000#32
  let main_v1 : FVec F S4x4x4096x64 .f32 := broadcastInDim S4x4x4096x64 ![] bcast_S_S4x4x4096x64 main_cst
  let main_v2 : IVec S4x4x4096x64 1 := cmpf .olt main_v0 main_v1
  let main_c : IVec S_ 1 := constantI S_ 1 1#1
  let main_v3 : IVec S_ 1 := (fun x v => Host.reduce IntOp.andi x v reducesTo_S4x4x4096x64_S_d0_1_2_3 h_S_) main_v2 main_c
  let main_v4 : FVec F S4x4x4096x64 .f32 := Host.absf main_arg1
  let main_cst_0 : FVec F S_ .f32 := constant S_ .f32 0x7F800000#32
  let main_v5 : FVec F S4x4x4096x64 .f32 := broadcastInDim S4x4x4096x64 ![] bcast_S_S4x4x4096x64 main_cst_0
  let main_v6 : IVec S4x4x4096x64 1 := cmpf .olt main_v4 main_v5
  let main_c_1 : IVec S_ 1 := constantI S_ 1 1#1
  let main_v7 : IVec S_ 1 := (fun x v => Host.reduce IntOp.andi x v reducesTo_S4x4x4096x64_S_d0_1_2_3 h_S_) main_v6 main_c_1
  let main_v8 : IVec S_ 1 := andi main_v3 main_v7
  let main_v9 : FVec F S4x4x4096x64 .f32 := Host.absf main_arg2
  let main_cst_2 : FVec F S_ .f32 := constant S_ .f32 0x7F800000#32
  let main_v10 : FVec F S4x4x4096x64 .f32 := broadcastInDim S4x4x4096x64 ![] bcast_S_S4x4x4096x64 main_cst_2
  let main_v11 : IVec S4x4x4096x64 1 := cmpf .olt main_v9 main_v10
  let main_c_3 : IVec S_ 1 := constantI S_ 1 1#1
  let main_v12 : IVec S_ 1 := (fun x v => Host.reduce IntOp.andi x v reducesTo_S4x4x4096x64_S_d0_1_2_3 h_S_) main_v11 main_c_3
  let main_v13 : IVec S_ 1 := andi main_v8 main_v12
  main_v13
-- ==== Kernel.lean ====
abbrev S4x4x4096x64 : Shape := ⟨4, ![4, 4, 4096, 64]⟩
abbrev S16x4096x64 : Shape := ⟨3, ![16, 4096, 64]⟩
abbrev S16x4096x4096 : Shape := ⟨3, ![16, 4096, 4096]⟩
abbrev S1x256x64 : Shape := ⟨3, ![1, 256, 64]⟩
abbrev S1x4096x64 : Shape := ⟨3, ![1, 4096, 64]⟩
abbrev S1x256x4096 : Shape := ⟨3, ![1, 256, 4096]⟩
abbrev S256x64 : Shape := ⟨2, ![256, 64]⟩
abbrev S4096x64 : Shape := ⟨2, ![4096, 64]⟩
abbrev S256x4096 : Shape := ⟨2, ![256, 4096]⟩
abbrev S256 : Shape := ⟨1, ![256]⟩
abbrev S256x1 : Shape := ⟨2, ![256, 1]⟩
abbrev S4x4x4096x4096 : Shape := ⟨4, ![4, 4, 4096, 4096]⟩

abbrev nBuf : Space → Nat
  | .hbm => 10
  | .vmem => 10
  | .smem => 0
  | _ => 0

abbrev bufTy : (tb : Table) → Fin (tcTables nBuf tb) → BufTy
  | .hbm, ⟨0, _⟩ => ⟨S4x4x4096x64, .f32⟩
  | .hbm, ⟨1, _⟩ => ⟨S4x4x4096x64, .f32⟩
  | .hbm, ⟨2, _⟩ => ⟨S4x4x4096x64, .f32⟩
  | .hbm, ⟨3, _⟩ => ⟨S16x4096x64, .f32⟩
  | .hbm, ⟨4, _⟩ => ⟨S16x4096x64, .f32⟩
  | .hbm, ⟨5, _⟩ => ⟨S16x4096x64, .f32⟩
  | .hbm, ⟨6, _⟩ => ⟨S16x4096x64, .f32⟩
  | .hbm, ⟨7, _⟩ => ⟨S16x4096x4096, .f32⟩
  | .hbm, ⟨8, _⟩ => ⟨S4x4x4096x64, .f32⟩
  | .hbm, ⟨9, _⟩ => ⟨S4x4x4096x4096, .f32⟩
  | .local _ .vmem, ⟨0, _⟩ => ⟨S1x256x64, .f32⟩
  | .local _ .vmem, ⟨1, _⟩ => ⟨S1x256x64, .f32⟩
  | .local _ .vmem, ⟨2, _⟩ => ⟨S1x4096x64, .f32⟩
  | .local _ .vmem, ⟨3, _⟩ => ⟨S1x4096x64, .f32⟩
  | .local _ .vmem, ⟨4, _⟩ => ⟨S1x4096x64, .f32⟩
  | .local _ .vmem, ⟨5, _⟩ => ⟨S1x4096x64, .f32⟩
  | .local _ .vmem, ⟨6, _⟩ => ⟨S1x256x64, .f32⟩
  | .local _ .vmem, ⟨7, _⟩ => ⟨S1x256x64, .f32⟩
  | .local _ .vmem, ⟨8, _⟩ => ⟨S1x256x4096, .f32⟩
  | .local _ .vmem, ⟨9, _⟩ => ⟨S1x256x4096, .f32⟩
  | _, _ => ⟨S4x4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x4x4096x64_S16x4096x64 : S4x4x4096x64.ShapeCasts S16x4096x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  bitsLt_bf16_f32 : FTy.bits .bf16 < FTy.bits .f32
  reduces_S256x4096_S256 : S256x4096.Reduces [1] S256
  shapeCasts_S256_S256x1 : S256.ShapeCasts S256x1
  broadcasts_S256x1_S256x4096 : S256x1.Broadcasts S256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  broadcasts_S256x1_S256x64 : S256x1.Broadcasts S256x64
  shapeCasts_S256x64_S1x256x64 : S256x64.ShapeCasts S1x256x64
  shapeCasts_S16x4096x64_S4x4x4096x64 : S16x4096x64.ShapeCasts S4x4x4096x64
  shapeCasts_S16x4096x4096_S4x4x4096x4096 : S16x4096x4096.ShapeCasts S4x4x4096x4096
  dot_S256x64_S4096x64_S256x4096_1_1_0_0_n_n_wf : DotDims.WF S256x64 S4096x64 S256x4096 [1] [1] [0] [0] [] []
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S16x4096x64.size a
  hwx0_0 : ∀ i : grid0.Coords, EltTy.bits .f32 = 32 ∨ (Rect.block (s := S16x4096x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S16x4096x64.size a
  hwx0_1 : ∀ i : grid0.Coords, EltTy.bits .f32 = 32 ∨ (Rect.block (s := S16x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S16x4096x64.size a
  hwx0_2 : ∀ i : grid0.Coords, EltTy.bits .f32 = 32 ∨ (Rect.block (s := S16x4096x64) S1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S16x4096x64.size a
  hwx0_3 : ∀ i : grid0.Coords, EltTy.bits .f32 = 32 ∨ (Rect.block (s := S16x4096x64) S1x256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x4096.size a ≤ S16x4096x4096.size a
  hwx0_4 : ∀ i : grid0.Coords, EltTy.bits .f32 = 32 ∨ (Rect.block (s := S16x4096x4096) S1x256x4096.size (cc0_transform_4 i) (hinb0_4 i)).WholeWords (EltTy.packing .f32)

variable [Facts₀]

def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_v0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x256x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4x4096x64 : Shape := ⟨4, ![4, 4, 4096, 64]⟩
abbrev S4x4x4096x4096 : Shape := ⟨4, ![4, 4, 4096, 4096]⟩
abbrev S_ : Shape := ⟨0, ![]⟩
abbrev S4x4x4096 : Shape := ⟨3, ![4, 4, 4096]⟩
abbrev S4x4x4096x1 : Shape := ⟨4, ![4, 4, 4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x4x4096x64, .f32⟩
  | .hbm, ⟨1, _⟩ => ⟨S4x4x4096x64, .f32⟩
  | .hbm, ⟨2, _⟩ => ⟨S4x4x4096x64, .f32⟩
  | .hbm, ⟨3, _⟩ => ⟨S4x4x4096x4096, .f32⟩
  | .hbm, ⟨4, _⟩ => ⟨S_, .f32⟩
  | .hbm, ⟨5, _⟩ => ⟨S4x4x4096x4096, .f32⟩
  | .hbm, ⟨6, _⟩ => ⟨S4x4x4096x4096, .f32⟩
  | .hbm, ⟨7, _⟩ => ⟨S_, .f32⟩
  | .hbm, ⟨8, _⟩ => ⟨S4x4x4096, .f32⟩
  | .hbm, ⟨9, _⟩ => ⟨S_, .f32⟩
  | .hbm, ⟨10, _⟩ => ⟨S4x4x4096, .f32⟩
  | .hbm, ⟨11, _⟩ => ⟨S4x4x4096, .f32⟩
  | .hbm, ⟨12, _⟩ => ⟨S4x4x4096x1, .f32⟩
  | .hbm, ⟨13, _⟩ => ⟨S4x4x4096x4096, .f32⟩
  | .hbm, ⟨14, _⟩ => ⟨S4x4x4096x4096, .f32⟩
  | .hbm, ⟨15, _⟩ => ⟨S4x4x4096x4096, .f32⟩
  | .hbm, ⟨16, _⟩ => ⟨S_, .f32⟩
  | .hbm, ⟨17, _⟩ => ⟨S4x4x4096, .f32⟩
  | .hbm, ⟨18, _⟩ => ⟨S4x4x4096x1, .f32⟩
  | .hbm, ⟨19, _⟩ => ⟨S4x4x4096x4096, .f32⟩
  | .hbm, ⟨20, _⟩ => ⟨S4x4x4096x4096, .f32⟩
  | .hbm, ⟨21, _⟩ => ⟨S4x4x4096x64, .f32⟩
  | _, _ => ⟨S4x4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S4x4x4096x4096 : S_.BroadcastsInDim S4x4x4096x4096 (![] : Fin 0 → Fin S4x4x4096x4096.rank)
  reducesTo_S4x4x4096x4096_S4x4x4096_d3 : S4x4x4096x4096.ReducesTo [3] S4x4x4096
  h_S_ : 0 < S_.numel
  bcast_S_S4x4x4096 : S_.BroadcastsInDim S4x4x4096 (![] : Fin 0 → Fin S4x4x4096.rank)
  bcast_S4x4x4096_S4x4x4096x1_0_1_2 : S4x4x4096.BroadcastsInDim S4x4x4096x1 (![0, 1, 2] : Fin 3 → Fin S4x4x4096x1.rank)
  bcast_S4x4x4096x1_S4x4x4096x4096_0_1_2_3 : S4x4x4096x1.BroadcastsInDim S4x4x4096x4096 (![0, 1, 2, 3] : Fin 4 → Fin S4x4x4096x4096.rank)
  dot_S4x4x4096x64_S4x4x4096x64_S4x4x4096x4096_3_3_2_2_01_01_wf : DotDims.WF S4x4x4096x64 S4x4x4096x64 S4x4x4096x4096 [3] [3] [2] [2] [0, 1] [0, 1]
  dot_S4x4x4096x4096_S4x4x4096x64_S4x4x4096x64_3_2_2_3_01_01_wf : DotDims.WF S4x4x4096x4096 S4x4x4096x64 S4x4x4096x64 [3] [2] [2] [3] [0, 1] [0, 1]

variable [Facts₀]

def dot_S4x4x4096x64_S4x4x4096x64_S4x4x4096x4096_3_3_2_2_01_01 : DotDims S4x4x4096x64 S4x4x4096x64 S4x4x4096x4096 where
  lhsContracting := [3]
  rhsContracting := [3]
  lhsNonContracting := [2]
  rhsNonContracting := [2]
  lhsBatch := [0, 1]
  rhsBatch := [0, 1]
  wf := dot_S4x4x4096x64_S4x4x4096x64_S4x4x4096x4096_3_3_2_2_01_01_wf
def dot_S4x4x4096x4096_S4x4x4096x64_S4x4x4096x64_3_2_2_3_01_01 : DotDims S4x4x4096x4096 S4x4x4096x64 S4x4x4096x64 where
  lhsContracting := [3]
  rhsContracting := [2]
  lhsNonContracting := [2]
  rhsNonContracting := [3]
  lhsBatch := [0, 1]
  rhsBatch := [0, 1]
  wf := dot_S4x4x4096x4096_S4x4x4096x64_S4x4x4096x64_3_2_2_3_01_01_wf

class Facts : Prop extends Facts₀ where

variable [Facts]
-- ==== Proof.LibMosaicRows.lean ====
/-
  Four readings of a kernel's row-wise vector operations at one entry, at the ideal instance, for any sizes.

  * col_repeated: a one-column matrix [a, 1] broadcast to [a, b] reads, at (p, c), the column's entry p — a row's
    maximum or sum, or a per-row scale, spread over the row.
  * rowSum_at: the sum reduction of a matrix [a, b] over its columns, from the zero word, reads at row p the sum over
    the b columns of the row's entries.
  * rowMax_at: the maximum reduction over the columns, from the word of -∞, reads at row p the fold of max from that
    word's value over the row's entries.
  * exp_at: the exponential of a vector reads, at an index, the exponential of the entry.
-/
import Idealize.ShloMosaic.PureOps.Ideal.Laws
import Idealize.ShloMosaic.Lib.ValueIdx
import Idealize.ShloMosaic.Lib.Pipeline.Value

noncomputable section

namespace Cert.Lib.MosaicRows

open Idealize.ShloMosaic Idealize.ShloMosaic.ValueIdx

/-- A one-column matrix broadcast across b columns reads, at (p, c), the column's entry p. -/
theorem col_repeated {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of row p with column k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  match c with
  | ⟨0, _⟩ => rfl
  | ⟨1, _⟩ => rfl

/-- The sum over the columns, from the zero word, at row p: the sum of the row's entries. -/
theorem rowSum_at {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

/-- The maximum over the columns, from the word of -∞, at row p: the fold of max from -∞ over the row's entries. -/
theorem rowMax_at {a b : ℕ} (src : FVec Ideal ⟨2, ![a, b]⟩ .f32)
    (h : (⟨2, ![a, b]⟩ : Shape).Reduces [1] (⟨1, ![a]⟩ : Shape)) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  have hf : (src ∘ h.lift (ix1 p)) = fun k : Fin b => src (ix2 p k) := funext fun k => congrArg src (lift_row h p k)
  exact congrArg (fun f => Finset.fold max (Ideal.ofBits .f32 0xFF800000#32) f (Finset.univ : Finset (Fin b))) hf

/-- The exponential of a vector at an index is the exponential of the entry. -/
theorem exp_at {s : Shape} (v : FVec Ideal s .f32) (i : s.Idx) : exp v i = Ideal.exp (v i) := rfl

end Cert.Lib.MosaicRows

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.BlockRow.lean ====
/-
  What one grid step computes, entry by entry, on the extended reals.

  A step holds a block of 256 query rows `x0` [1, 256, 64] and the whole key and value matrices of its batch-head,
  `x1`, `x2` [1, 4096, 64].  For a query row `r` and a key `c` the score is the contraction over the 64 features
  of the SCALED query entry with the key entry, `∑ d, (x0[r,d] · s) · x1[c,d]` (s the scale's word).  The step then
  takes the row's maximum `m_r` (a fold of max from the word of -∞), the weights `exp (score - m_r)`, their row
  sum, the reciprocal `1 / sum`, and stores `weight · reciprocal` (the attention block) and
  `(∑ c, weight[r,c] · x2[c,d]) · reciprocal` (the output block).  Changes of float format are the identity here.
-/
import proofs.«143756_j12146167513248_2_alg».proof.Proof.Gen.KernelIdeal.Skeleton
import proofs.«143756_j12146167513248_2_alg».proof.Proof.LibMosaicRows
import proofs.«143756_j12146167513248_2_alg».proof.Proof.LibSplitContraction
import Idealize.ShloMosaic.Lib.Pipeline.Value
import Idealize.ShloMosaic.Lib.ValueIdx
import Idealize.ShloMosaic.PureOps.Ideal.Laws

noncomputable section

namespace Cert.KernelIdeal.BlockRow

open Cert.KernelIdeal Cert.KernelIdeal.Gen Idealize.ShloMosaic Idealize.ShloMosaic.ValueIdx
open scoped BigOperators

/-! ## Layout: the block's leading unit axis, and a vector as a column -/

/-- A block [1, a, b] recast as the matrix [a, b] reads, at (r, c), the block at (0, r, c). -/
theorem drop_lead {α : Type} {a b : ℕ} (x : (⟨3, ![1, a, b]⟩ : Shape).Idx → α)
    (h : (⟨3, ![1, a, b]⟩ : Shape).ShapeCasts ⟨2, ![a, b]⟩) (r : Fin a) (c : Fin b) :
    shapeCast ⟨2, ![a, b]⟩ x h (ix2 r c) = x (ix3 (0 : Fin 1) r c) :=
  shapeCast_apply x h _ _ (by
    rw [Shape.rowMajor_val_three, Shape.rowMajor_val_two]
    show (0 * a + r.val) * b + c.val = r.val * b + c.val
    rw [Nat.zero_mul, Nat.zero_add])

/-- A matrix [a, b] recast as the block [1, a, b] reads, at (0, r, c), the matrix at (r, c). -/
theorem add_lead {α : Type} {a b : ℕ} (x : (⟨2, ![a, b]⟩ : Shape).Idx → α)
    (h : (⟨2, ![a, b]⟩ : Shape).ShapeCasts ⟨3, ![1, a, b]⟩) (r : Fin a) (c : Fin b) :
    shapeCast ⟨3, ![1, a, b]⟩ x h (ix3 (0 : Fin 1) r c) = x (ix2 r c) :=
  shapeCast_apply x h _ _ (by
    rw [Shape.rowMajor_val_three, Shape.rowMajor_val_two]
    show r.val * b + c.val = (0 * a + r.val) * b + c.val
    rw [Nat.zero_mul, Nat.zero_add])

/-- A vector [a] recast as the column [a, 1] reads, at (r, 0), the vector at r. -/
theorem col_of_vec {α : Type} {a : ℕ} (x : (⟨1, ![a]⟩ : Shape).Idx → α)
    (h : (⟨1, ![a]⟩ : Shape).ShapeCasts ⟨2, ![a, 1]⟩) (r : Fin a) :
    shapeCast ⟨2, ![a, 1]⟩ x h (ix2 r (0 : Fin 1)) = x (ix1 r) :=
  shapeCast_apply x h _ _ (by
    rw [Shape.rowMajor_val_one, Shape.rowMajor_val_two]
    show r.val = r.val * 1 + 0
    omega)

/-! ## A product of a matrix with a transposed matrix, into the zero accumulator -/

/-- A product [n, K] · [d, K]ᵀ (both operands contracted over their second axis) into the zero accumulator, read
    at entry (r, c): the sum over the contracted axis of `lhs[r,k] · rhs[c,k]`. -/
theorem matmul_nt_zero_at {n K d : Nat} {φ₁ φ₂ : FTy}
    (D : DotDims ⟨2, ![n, K]⟩ ⟨2, ![d, K]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (j 1).val)
    (hr1 : ∀ j q, (D.rhsIdx j q 1).val = (q ⟨0, by omega⟩).val)
    (prec : Option ContractPrecision)
    (lhs : FVec Ideal ⟨2, ![n, K]⟩ φ₁) (rhs : FVec Ideal ⟨2, ![d, K]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 c k := funext fun a => Fin.ext (by
    match a with
    | ⟨0, _⟩ => exact hr0 _ _
    | ⟨1, _⟩ => exact (hr1 _ _).trans hk)
  rw [el, er]

/-! ## The step's values -/

/-- The score of query row `r` against key `c`: the features' sum of the scaled query entry times the key entry. -/
def score (x0 : Vec Ideal S1x256x64 .f32) (x1 : Vec Ideal S1x4096x64 .f32) (r : Fin 256) (c : Fin 4096) : EReal :=
  ∑ d : Fin 64, (x0 (ix3 (0 : Fin 1) r d) * Ideal.ofBits .f32 0x3E000000#32) * x1 (ix3 (0 : Fin 1) c d)

/-- The score matrix is the product of the scaled query block with the key block, contracted over the features. -/
theorem scores_at (x0 : Vec Ideal S1x256x64 .f32) (x1 : Vec Ideal S1x4096x64 .f32) (r : Fin 256) (c : Fin 4096) :
    matmul dot_S256x64_S4096x64_S256x4096_1_1_0_0_n_n none
        (truncf .bf16 (mulf (shapeCast S256x64 x0 shapeCasts_S1x256x64_S256x64) (broadcast S256x64 (Scalar.ofBits (F := Ideal) .f32 0x3E000000#32))) bitsLt_bf16_f32)
        (truncf .bf16 (shapeCast S4096x64 x1 shapeCasts_S1x4096x64_S4096x64) bitsLt_bf16_f32)
        (constant (F := Ideal) S256x4096 .f32 0x00000000#32) (ix2 r c)
      = score x0 x1 r c := by
  refine (matmul_nt_zero_at dot_S256x64_S4096x64_S256x4096_1_1_0_0_n_n rfl rfl ?_ ?_ ?_ ?_ none _ _ r c).trans ?_
  · intro j q
    unfold DotDims.lhsIdx
    rw [dif_neg (show ¬(0 : Fin S256x64.rank) ∈ dot_S256x64_S4096x64_S256x4096_1_1_0_0_n_n.lhsBatch by decide),
      dif_pos (show (0 : Fin S256x64.rank) ∈ dot_S256x64_S4096x64_S256x4096_1_1_0_0_n_n.lhsNonContracting by decide)]
    rfl
  · intro j q
    exact dot_S256x64_S4096x64_S256x4096_1_1_0_0_n_n.lhsIdx_val_of_single rfl j q
  · intro j q
    unfold DotDims.rhsIdx
    rw [dif_neg (show ¬(0 : Fin S4096x64.rank) ∈ dot_S256x64_S4096x64_S256x4096_1_1_0_0_n_n.rhsBatch by decide),
      dif_pos (show (0 : Fin S4096x64.rank) ∈ dot_S256x64_S4096x64_S256x4096_1_1_0_0_n_n.rhsNonContracting by decide)]
    rfl
  · intro j q
    exact dot_S256x64_S4096x64_S256x4096_1_1_0_0_n_n.rhsIdx_val_of_single rfl j q
  · unfold score
    refine Finset.sum_congr rfl fun k _ => ?_
    rw [truncf_apply, truncf_apply, mulf_apply, broadcast_apply, drop_lead, drop_lead]
    rfl

/-- The weight of key `c` in row `r`: the exponential of the score less the row's maximum, the maximum a fold of max
    from the word of -∞ over the row's scores. -/
theorem weight_at (x0 : Vec Ideal S1x256x64 .f32) (x1 : Vec Ideal S1x4096x64 .f32) (r : Fin 256) (c : Fin 4096) :
    k0_pay1 (F := Ideal) x0 x1 (ix2 r c)
      = Ideal.exp (score x0 x1 r c
          - (Finset.univ : Finset (Fin 4096)).fold max (Ideal.ofBits .f32 0xFF800000#32) (fun k => score x0 x1 r k)) := by
  unfold k0_pay1
  dsimp only
  rw [Cert.Lib.MosaicRows.exp_at, subf_apply, Cert.Lib.MosaicRows.col_repeated, col_of_vec, Cert.Lib.MosaicRows.rowMax_at]
  simp only [scores_at]

/-- The reciprocal of row `r`'s sum of weights, as the step takes it: the word of 1 divided by the sum. -/
theorem recip_at (x0 : Vec Ideal S1x256x64 .f32) (x1 : Vec Ideal S1x4096x64 .f32) (r : Fin 256) :
    k0_pay2 (F := Ideal) x0 x1 (ix2 r (0 : Fin 1))
      = Ideal.div (Ideal.ofBits .f32 0x3F800000#32) (∑ c : Fin 4096, k0_pay1 (F := Ideal) x0 x1 (ix2 r c)) := by
  unfold k0_pay2
  dsimp only
  rw [divf_apply, broadcast_apply, col_of_vec, Cert.Lib.MosaicRows.rowSum_at]
  rfl

/-- The stored attention block at (0, r, c): the weight times the row's reciprocal. -/
theorem attn_block_at (x0 : Vec Ideal S1x256x64 .f32) (x1 : Vec Ideal S1x4096x64 .f32) (r : Fin 256) (c : Fin 4096) :
    k0_pay3 (F := Ideal) x0 x1 (ix3 (0 : Fin 1) r c)
      = k0_pay1 (F := Ideal) x0 x1 (ix2 r c) * k0_pay2 (F := Ideal) x0 x1 (ix2 r (0 : Fin 1)) := by
  unfold k0_pay3
  rw [add_lead, mulf_apply, Cert.Lib.MosaicRows.col_repeated]

/-- The weights' product with the value block at (r, d): the keys' sum of weight times value entry. -/
theorem weighted_values_at (w : FVec Ideal S256x4096 .f32) (x2 : Vec Ideal S1x4096x64 .f32) (r : Fin 256) (d : Fin 64) :
    matmul dot_S256x4096_S4096x64_S256x64_1_0_0_1_n_n none (truncf .bf16 w bitsLt_bf16_f32)
        (truncf .bf16 (shapeCast S4096x64 x2 shapeCasts_S1x4096x64_S4096x64) bitsLt_bf16_f32)
        (constant (F := Ideal) S256x64 .f32 0x00000000#32) (ix2 r d)
      = ∑ j : Fin 4096, w (ix2 r j) * x2 (ix3 (0 : Fin 1) j d) := by
  refine (Cert.Lib.SplitContraction.matmul_zero_at dot_S256x4096_S4096x64_S256x64_1_0_0_1_n_n rfl rfl ?_ ?_ ?_ ?_ none _ _ r d).trans ?_
  · intro j q
    unfold DotDims.lhsIdx
    rw [dif_neg (show ¬(0 : Fin S256x4096.rank) ∈ dot_S256x4096_S4096x64_S256x64_1_0_0_1_n_n.lhsBatch by decide),
      dif_pos (show (0 : Fin S256x4096.rank) ∈ dot_S256x4096_S4096x64_S256x64_1_0_0_1_n_n.lhsNonContracting by decide)]
    rfl
  · intro j q
    exact dot_S256x4096_S4096x64_S256x64_1_0_0_1_n_n.lhsIdx_val_of_single rfl j q
  · intro j q
    exact dot_S256x4096_S4096x64_S256x64_1_0_0_1_n_n.rhsIdx_val_of_single rfl j q
  · intro j q
    unfold DotDims.rhsIdx
    rw [dif_neg (show ¬(1 : Fin S4096x64.rank) ∈ dot_S256x4096_S4096x64_S256x64_1_0_0_1_n_n.rhsBatch by decide),
      dif_pos (show (1 : Fin S4096x64.rank) ∈ dot_S256x4096_S4096x64_S256x64_1_0_0_1_n_n.rhsNonContracting by decide)]
    rfl
  · refine Finset.sum_congr rfl fun k _ => ?_
    rw [truncf_apply, truncf_apply, drop_lead]

/-- The stored output block at (0, r, d): the weighted sum of the value entries times the row's reciprocal. -/
theorem out_block_at (x0 : Vec Ideal S1x256x64 .f32) (x1 : Vec Ideal S1x4096x64 .f32) (x2 : Vec Ideal S1x4096x64 .f32)
    (r : Fin 256) (d : Fin 64) :
    k0_pay4 (F := Ideal) x0 x1 x2 (ix3 (0 : Fin 1) r d)
      = (∑ j : Fin 4096, k0_pay1 (F := Ideal) x0 x1 (ix2 r j) * x2 (ix3 (0 : Fin 1) j d))
          * k0_pay2 (F := Ideal) x0 x1 (ix2 r (0 : Fin 1)) := by
  unfold k0_pay4
  rw [add_lead, mulf_apply, Cert.Lib.MosaicRows.col_repeated, weighted_values_at]

/-! ## The same values as functions of one query row, the key matrix and one value column -/

/-- A row's score against key `c`: the features' sum of the scaled query entry times the key entry. -/
def rowScore (q : Fin 64 → EReal) (k : Fin 4096 → Fin 64 → EReal) (c : Fin 4096) : EReal :=
  ∑ d : Fin 64, (q d * Ideal.ofBits .f32 0x3E000000#32) * k c d

/-- The weight of key `c`: the exponential of its score less the row's maximum. -/
def rowWeight (q : Fin 64 → EReal) (k : Fin 4096 → Fin 64 → EReal) (c : Fin 4096) : EReal :=
  Ideal.exp (rowScore q k c - (Finset.univ : Finset (Fin 4096)).fold max (Ideal.ofBits .f32 0xFF800000#32) (fun j => rowScore q k j))

/-- The reciprocal of the row's sum of weights. -/
def rowRecip (q : Fin 64 → EReal) (k : Fin 4096 → Fin 64 → EReal) : EReal :=
  Ideal.div (Ideal.ofBits .f32 0x3F800000#32) (∑ c : Fin 4096, rowWeight q k c)

/-- The attention entry for key `c`: the weight times the reciprocal of the row sum. -/
def rowAttn (q : Fin 64 → EReal) (k : Fin 4096 → Fin 64 → EReal) (c : Fin 4096) : EReal :=
  rowWeight q k c * rowRecip q k

/-- The output entry for a value column `v`: the weighted sum of the column, then the reciprocal of the row sum. -/
def rowOut (q : Fin 64 → EReal) (k : Fin 4096 → Fin 64 → EReal) (v : Fin 4096 → EReal) : EReal :=
  (∑ j : Fin 4096, rowWeight q k j * v j) * rowRecip q k

theorem weight_eq (x0 : Vec Ideal S1x256x64 .f32) (x1 : Vec Ideal S1x4096x64 .f32) (r : Fin 256) (c : Fin 4096) :
    k0_pay1 (F := Ideal) x0 x1 (ix2 r c)
      = rowWeight (fun d => x0 (ix3 (0 : Fin 1) r d)) (fun j d => x1 (ix3 (0 : Fin 1) j d)) c :=
  weight_at x0 x1 r c

theorem recip_eq (x0 : Vec Ideal S1x256x64 .f32) (x1 : Vec Ideal S1x4096x64 .f32) (r : Fin 256) :
    k0_pay2 (F := Ideal) x0 x1 (ix2 r (0 : Fin 1))
      = rowRecip (fun d => x0 (ix3 (0 : Fin 1) r d)) (fun j d => x1 (ix3 (0 : Fin 1) j d)) := by
  rw [recip_at]
  unfold rowRecip
  exact congrArg _ (Finset.sum_congr rfl fun c _ => weight_eq x0 x1 r c)

/-- The stored attention block at (0, r, c) is the row's attention entry for key `c`. -/
theorem attn_block_eq (x0 : Vec Ideal S1x256x64 .f32) (x1 : Vec Ideal S1x4096x64 .f32) (r : Fin 256) (c : Fin 4096) :
    k0_pay3 (F := Ideal) x0 x1 (ix3 (0 : Fin 1) r c)
      = rowAttn (fun d => x0 (ix3 (0 : Fin 1) r d)) (fun j d => x1 (ix3 (0 : Fin 1) j d)) c := by
  rw [attn_block_at, weight_eq, recip_eq]
  rfl

/-- The stored output block at (0, r, d) is the row's output entry for value column `d`. -/
theorem out_block_eq (x0 : Vec Ideal S1x256x64 .f32) (x1 : Vec Ideal S1x4096x64 .f32) (x2 : Vec Ideal S1x4096x64 .f32)
    (r : Fin 256) (d : Fin 64) :
    k0_pay4 (F := Ideal) x0 x1 x2 (ix3 (0 : Fin 1) r d)
      = rowOut (fun e => x0 (ix3 (0 : Fin 1) r e)) (fun j e => x1 (ix3 (0 : Fin 1) j e)) (fun j => x2 (ix3 (0 : Fin 1) j d)) := by
  rw [out_block_at, recip_eq]
  unfold rowOut
  exact congrArg (· * _) (Finset.sum_congr rfl fun j _ => by rw [weight_eq])

end Cert.KernelIdeal.BlockRow

end
-- ==== Proof.KernelArrays.lean ====
/-
  The two arrays the grid leaves behind, each as ONE function of the three arrays the grid reads.

  The grid has 16 × 16 steps; step (g, p) reads query rows 256p … 256p+255 of batch-head g and all 4096 keys and values
  of g, and writes rows 256p … 256p+255 of g's output matrix [4096, 64] and of g's attention matrix [4096, 4096].
  Row R of batch-head g depends only on query row (g, R) and on g's keys and values, whichever step computes it, so
  what a step writes back is the restriction to its rows of one array-wide function; the steps' row blocks tile the
  arrays, so each array ends equal to that function.
-/
import proofs.«143756_j12146167513248_2_alg».proof.Proof.Gen.KernelIdeal.Frame
import proofs.«143756_j12146167513248_2_alg».proof.Proof.BlockRow
import Idealize.ShloMosaic.Lib.Pipeline.Value
import Idealize.ShloMosaic.Lib.ValueIdx
import Idealize.ShloMosaic.PureOps.Ideal.Laws

noncomputable section

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The array-wide functions -/

/-- The attention entry of batch-head `g`, query row `r`, key `c`, from the query and key arrays [16, 4096, 64]. -/
def attnEntry (A0 A1 : S16x4096x64.Idx → EReal) (g : Fin 16) (r c : Fin 4096) : EReal :=
  BlockRow.rowAttn (fun d => A0 (ix3 g r d)) (fun j d => A1 (ix3 g j d)) c

/-- The output entry of batch-head `g`, query row `r`, feature `d`, from the query, key and value arrays. -/
def outEntry (A0 A1 A2 : S16x4096x64.Idx → EReal) (g : Fin 16) (r : Fin 4096) (d : Fin 64) : EReal :=
  BlockRow.rowOut (fun e => A0 (ix3 g r e)) (fun j e => A1 (ix3 g j e)) (fun j => A2 (ix3 g j d))

/-- The whole attention array [16, 4096, 4096]. -/
def attnArray (A0 A1 : S16x4096x64.Idx → EReal) : S16x4096x4096.Idx → EReal :=
  fun i => attnEntry A0 A1 (i 0) (i 1) (i 2)

/-- The whole output array [16, 4096, 64]. -/
def outArray (A0 A1 A2 : S16x4096x64.Idx → EReal) : S16x4096x64.Idx → EReal :=
  fun i => outEntry A0 A1 A2 (i 0) (i 1) (i 2)

/-- The row functions depend only on the values of their arguments. -/
theorem rowAttn_congr {q q' : Fin 64 → EReal} {k k' : Fin 4096 → Fin 64 → EReal} {c c' : Fin 4096}
    (hq : ∀ d, q d = q' d) (hk : ∀ j d, k j d = k' j d) (hc : c = c') :
    BlockRow.rowAttn q k c = BlockRow.rowAttn q' k' c' := by
  obtain rfl : q = q' := funext hq
  obtain rfl : k = k' := funext fun j => funext (hk j)
  subst hc
  rfl

theorem rowOut_congr {q q' : Fin 64 → EReal} {k k' : Fin 4096 → Fin 64 → EReal} {v v' : Fin 4096 → EReal}
    (hq : ∀ d, q d = q' d) (hk : ∀ j d, k j d = k' j d) (hv : ∀ j, v j = v' j) :
    BlockRow.rowOut q k v = BlockRow.rowOut q' k' v' := by
  obtain rfl : q = q' := funext hq
  obtain rfl : k = k' := funext fun j => funext (hk j)
  obtain rfl : v = v' := funext hv
  rfl

/-! ## Where each step's blocks sit -/

theorem hz3 : (![0, 0, 0] : Fin 3 → Nat) = fun _ => 0 := funext fun a => by fin_cases a <;> rfl

/-- The block indices at step `t` = 16 g + p, decided over the 256 steps: the query block and both output blocks are
    block (g, p, 0); the key and value blocks are block (g, 0, 0). -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = t.val % 16 ∧ win0_3.index t (2 : Fin 3) = 0
    ∧ win0_4.index t (0 : Fin 3) = t.val / 16 ∧ win0_4.index t (1 : Fin 3) = t.val % 16 ∧ win0_4.index t (2 : Fin 3) = 0 :=
  (by decide +kernel : ∀ t : Fin grid0.N, _)

/-- The query block's entry (0, r, d) at step `t` is the query array at (g, R, d), R the row the block's r-th row is. -/
theorem qblock_at (c : Dev nD) (t : Fin cfg0.N) (r : Fin 256) (d : Fin 64) (g : Fin 16) (R : Fin 4096)
    (hg : g.val = win0_0.index t (0 : Fin 3)) (hR : R.val = win0_0.index t (1 : Fin 3) * 256 + r.val)
    (h2 : win0_0.index t (2 : Fin 3) = 0) :
    iblk m c 0 t (ix3 (0 : Fin 1) r d) = V m c main_v0 (ix3 g R d) := by
  have he : ((cfg0.win 0).blk t).view.emb (ix3 (0 : Fin 1) r d) = ix3 g R d := by
    funext a; apply Fin.ext
    match a with
    | ⟨0, _⟩ => show win0_0.index t (0 : Fin 3) * 1 + 1 * 0 = g.val; omega
    | ⟨1, _⟩ => show win0_0.index t (1 : Fin 3) * 256 + 1 * r.val = R.val; omega
    | ⟨2, _⟩ => show win0_0.index t (2 : Fin 3) * 64 + 1 * d.val = d.val; omega
  show V m c main_v0 (((cfg0.win 0).blk t).view.emb (ix3 (0 : Fin 1) r d)) = _
  rw [he]

/-- The key block's entry (0, j, d) at step `t` is the key array at (g, j, d). -/
theorem kblock_at (c : Dev nD) (t : Fin cfg0.N) (j : Fin 4096) (d : Fin 64) (g : Fin 16)
    (hg : g.val = win0_1.index t (0 : Fin 3)) (h1 : win0_1.index t (1 : Fin 3) = 0) (h2 : win0_1.index t (2 : Fin 3) = 0) :
    iblk m c 1 t (ix3 (0 : Fin 1) j d) = V m c main_v1 (ix3 g j d) := by
  have he : ((cfg0.win 1).blk t).view.emb (ix3 (0 : Fin 1) j d) = ix3 g j d := by
    funext a; apply Fin.ext
    match a with
    | ⟨0, _⟩ => show win0_1.index t (0 : Fin 3) * 1 + 1 * 0 = g.val; omega
    | ⟨1, _⟩ => show win0_1.index t (1 : Fin 3) * 4096 + 1 * j.val = j.val; omega
    | ⟨2, _⟩ => show win0_1.index t (2 : Fin 3) * 64 + 1 * d.val = d.val; omega
  show V m c main_v1 (((cfg0.win 1).blk t).view.emb (ix3 (0 : Fin 1) j d)) = _
  rw [he]

/-- The value block's entry (0, j, d) at step `t` is the value array at (g, j, d). -/
theorem vblock_at (c : Dev nD) (t : Fin cfg0.N) (j : Fin 4096) (d : Fin 64) (g : Fin 16)
    (hg : g.val = win0_2.index t (0 : Fin 3)) (h1 : win0_2.index t (1 : Fin 3) = 0) (h2 : win0_2.index t (2 : Fin 3) = 0) :
    iblk m c 2 t (ix3 (0 : Fin 1) j d) = V m c main_v2 (ix3 g j d) := by
  have he : ((cfg0.win 2).blk t).view.emb (ix3 (0 : Fin 1) j d) = ix3 g j d := by
    funext a; apply Fin.ext
    match a with
    | ⟨0, _⟩ => show win0_2.index t (0 : Fin 3) * 1 + 1 * 0 = g.val; omega
    | ⟨1, _⟩ => show win0_2.index t (1 : Fin 3) * 4096 + 1 * j.val = j.val; omega
    | ⟨2, _⟩ => show win0_2.index t (2 : Fin 3) * 64 + 1 * d.val = d.val; omega
  show V m c main_v2 (((cfg0.win 2).blk t).view.emb (ix3 (0 : Fin 1) j d)) = _
  rw [he]

/-! ## What a step writes back is a block of the array-wide function -/

/-- The row's attention entry computed from the step's blocks is the array-wide function at the array index `I` that
    the block entry (0, r, cc) lands on. -/
theorem attn_entry_of_block (c : Dev nD) (t : Fin cfg0.N) (r : Fin 256) (cc : Fin 4096) (I : S16x4096x4096.Idx)
    (h0 : (I 0).val = t.val / 16) (h1 : (I 1).val = t.val % 16 * 256 + r.val) (h2 : (I 2).val = cc.val) :
    BlockRow.rowAttn (fun d => iblk m c 0 t (ix3 (0 : Fin 1) r d)) (fun j d => iblk m c 1 t (ix3 (0 : Fin 1) j d)) cc
      = attnArray (V m c main_v0) (V m c main_v1) I := by
  obtain ⟨e00, e01, e02, e10, e11, e12, -⟩ := idx_facts t
  unfold attnArray attnEntry
  exact rowAttn_congr (fun d => qblock_at m c t r d (I 0) (I 1) (by omega) (by omega) e02)
    (fun j d => kblock_at m c t j d (I 0) (by omega) e11 e12) (Fin.ext h2.symm)

theorem out_entry_of_block (c : Dev nD) (t : Fin cfg0.N) (r : Fin 256) (d : Fin 64) (I : S16x4096x64.Idx)
    (h0 : (I 0).val = t.val / 16) (h1 : (I 1).val = t.val % 16 * 256 + r.val) (h2 : (I 2).val = d.val) :
    BlockRow.rowOut (fun e => iblk m c 0 t (ix3 (0 : Fin 1) r e)) (fun j e => iblk m c 1 t (ix3 (0 : Fin 1) j e))
        (fun j => iblk m c 2 t (ix3 (0 : Fin 1) j d))
      = outArray (V m c main_v0) (V m c main_v1) (V m c main_v2) I := by
  obtain ⟨e00, e01, e02, e10, e11, e12, e20, e21, e22, -⟩ := idx_facts t
  unfold outArray outEntry
  have hd : d = I 2 := Fin.ext h2.symm
  subst hd
  exact rowOut_congr (fun e => qblock_at m c t r e (I 0) (I 1) (by omega) (by omega) e02)
    (fun j e => kblock_at m c t j e (I 0) (by omega) e11 e12)
    (fun j => vblock_at m c t j (I 2) (I 0) (by omega) e21 e22)

/-- WHAT STEP `t` WRITES BACK to the attention array is block `t` of the array-wide attention function. -/
theorem flushed_attn (c : Dev nD) (t : Fin cfg0.N) :
    (dats m 0 c).flushed 4 t = ((cfg0.win 4).blk t).view.read (Elt Ideal) (attnArray (V m c main_v0) (V m c main_v1)) := by
  show (cfg0.win 4).cut (grid0.coords t) ((dats m 0 c).after 4 t) = _
  rw [after0_4]
  unfold out0_4
  rw [View.canon_unit_zero hz3]
  simp only [View.ld_unit_zero (S := S1x256x64) hz3, View.ld_unit_zero (S := S1x4096x64) hz3]
  obtain ⟨-, -, -, -, -, -, -, -, -, -, -, -, e40, e41, e42⟩ := idx_facts t
  funext y
  obtain ⟨u, r, cc, rfl⟩ : ∃ (u : Fin 1) (r : Fin 256) (cc : Fin 4096), y = ix3 u r cc := ⟨y 0, y 1, y 2, eq_ix3 y⟩
  obtain rfl : u = 0 := Subsingleton.elim _ _
  show k0_pay3 (iblk m c 0 t) (iblk m c 1 t) (ix3 (0 : Fin 1) r cc)
    = attnArray (V m c main_v0) (V m c main_v1) (((cfg0.win 4).blk t).view.emb (ix3 (0 : Fin 1) r cc))
  refine (BlockRow.attn_block_eq (iblk m c 0 t) (iblk m c 1 t) r cc).trans ?_
  refine attn_entry_of_block m c t r cc _ ?_ ?_ ?_
  · show win0_4.index t (0 : Fin 3) * 1 + 1 * 0 = t.val / 16; omega
  · show win0_4.index t (1 : Fin 3) * 256 + 1 * r.val = t.val % 16 * 256 + r.val; omega
  · show win0_4.index t (2 : Fin 3) * 4096 + 1 * cc.val = cc.val; omega

/-- WHAT STEP `t` WRITES BACK to the output array is block `t` of the array-wide output function. -/
theorem flushed_out (c : Dev nD) (t : Fin cfg0.N) :
    (dats m 0 c).flushed 3 t
      = ((cfg0.win 3).blk t).view.read (Elt Ideal) (outArray (V m c main_v0) (V m c main_v1) (V m c main_v2)) := by
  show (cfg0.win 3).cut (grid0.coords t) ((dats m 0 c).after 3 t) = _
  rw [after0_3]
  unfold out0_3
  rw [View.canon_unit_zero hz3]
  simp only [View.ld_unit_zero (S := S1x256x64) hz3, View.ld_unit_zero (S := S1x4096x64) hz3]
  obtain ⟨-, -, -, -, -, -, -, -, -, e30, e31, e32, -⟩ := idx_facts t
  funext y
  obtain ⟨u, r, d, rfl⟩ : ∃ (u : Fin 1) (r : Fin 256) (d : Fin 64), y = ix3 u r d := ⟨y 0, y 1, y 2, eq_ix3 y⟩
  obtain rfl : u = 0 := Subsingleton.elim _ _
  show k0_pay4 (iblk m c 0 t) (iblk m c 1 t) (iblk m c 2 t) (ix3 (0 : Fin 1) r d)
    = outArray (V m c main_v0) (V m c main_v1) (V m c main_v2) (((cfg0.win 3).blk t).view.emb (ix3 (0 : Fin 1) r d))
  refine (BlockRow.out_block_eq (iblk m c 0 t) (iblk m c 1 t) (iblk m c 2 t) r d).trans ?_
  refine out_entry_of_block m c t r d _ ?_ ?_ ?_
  · show win0_3.index t (0 : Fin 3) * 1 + 1 * 0 = t.val / 16; omega
  · show win0_3.index t (1 : Fin 3) * 256 + 1 * r.val = t.val % 16 * 256 + r.val; omega
  · show win0_3.index t (2 : Fin 3) * 64 + 1 * d.val = d.val; omega

/-! ## The row blocks tile the arrays -/

theorem mem_blk_attn (t : Fin cfg0.N) (i : S16x4096x4096.Idx) :
    i ∈ ((cfg0.win 4).blk t).view.set ↔ ∀ a : Fin 3, win0_4.index t a * S1x256x4096.size a ≤ (i a).val
      ∧ (i a).val < win0_4.index t a * S1x256x4096.size a + S1x256x4096.size a := by
  show i ∈ ((View.whole main_v3_1).slice (win0_4.rect t)).set ↔ _
  rw [View.set_slice_whole, Rect.mem_set_unit]
  exact Iff.rfl

theorem mem_blk_out (t : Fin cfg0.N) (i : S16x4096x64.Idx) :
    i ∈ ((cfg0.win 3).blk t).view.set ↔ ∀ a : Fin 3, win0_3.index t a * S1x256x64.size a ≤ (i a).val
      ∧ (i a).val < win0_3.index t a * S1x256x64.size a + S1x256x64.size a := by
  show i ∈ ((View.whole main_v3_0).slice (win0_3.rect t)).set ↔ _
  rw [View.set_slice_whole, Rect.mem_set_unit]
  exact Iff.rfl

/-- Row R of batch-head g is written by step 16 g + R / 256. -/
theorem cover_attn (i : S16x4096x4096.Idx) :
    ∃ t : Fin cfg0.N, (cfg0.win 4).flush t = true ∧ i ∈ ((cfg0.win 4).blk t).view.set := by
  have hi0 : (i 0).val < 16 := (i 0).isLt
  have hi1 : (i 1).val < 4096 := (i 1).isLt
  have hi2 : (i 2).val < 4096 := (i 2).isLt
  have hN : cfg0.N = 256 := N_0
  let t : Fin cfg0.N := ⟨(i 0).val * 16 + (i 1).val / 256, by rw [hN]; omega⟩
  have ht : t.val = (i 0).val * 16 + (i 1).val / 256 := rfl
  obtain ⟨-, -, -, -, -, -, -, -, -, -, -, -, e40, e41, e42⟩ := idx_facts t
  refine ⟨t, flush0_4 t, ?_⟩
  rw [mem_blk_attn]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 4096 ≤ (i 2).val ∧ (i 2).val < win0_4.index t (2 : Fin 3) * 4096 + 4096; omega

theorem cover_out (i : S16x4096x64.Idx) :
    ∃ t : Fin cfg0.N, (cfg0.win 3).flush t = true ∧ i ∈ ((cfg0.win 3).blk t).view.set := by
  have hi0 : (i 0).val < 16 := (i 0).isLt
  have hi1 : (i 1).val < 4096 := (i 1).isLt
  have hi2 : (i 2).val < 64 := (i 2).isLt
  have hN : cfg0.N = 256 := N_0
  let t : Fin cfg0.N := ⟨(i 0).val * 16 + (i 1).val / 256, by rw [hN]; omega⟩
  have ht : t.val = (i 0).val * 16 + (i 1).val / 256 := rfl
  obtain ⟨-, -, -, -, -, -, -, -, -, e30, e31, e32, -⟩ := idx_facts t
  refine ⟨t, flush0_3 t, ?_⟩
  rw [mem_blk_out]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 64 ≤ (i 2).val ∧ (i 2).val < win0_3.index t (2 : Fin 3) * 64 + 64; omega

/-- THE ATTENTION ARRAY after the grid is the array-wide attention function of the query and key arrays. -/
theorem final_attn (c : Dev nD) : (dats m 0 c).arrAt 4 cfg0.N = attnArray (V m c main_v0) (V m c main_v1) :=
  (dats m 0 c).arrAt_eq_of_cover 4 _ (fun t _ => flushed_attn m c t) cover_attn

/-- THE OUTPUT ARRAY after the grid is the array-wide output function of the query, key and value arrays. -/
theorem final_out (c : Dev nD) :
    (dats m 0 c).arrAt 3 cfg0.N = outArray (V m c main_v0) (V m c main_v1) (V m c main_v2) :=
  (dats m 0 c).arrAt_eq_of_cover 3 _ (fun t _ => flushed_out m c t) cover_out

end Cert.KernelIdeal.Arrays

end
-- ==== Proof.KernelRun.lean ====
/-
  The kernel program's results as functions of its three inputs.

  Around the grid the program only re-lays arrays: each input [4, 4, 4096, 64] is recast as [16, 4096, 64] (batch b
  and head h become batch-head 4 b + h) before the grid, and the grid's two arrays are recast back as
  [4, 4, 4096, 64] and [4, 4, 4096, 4096] after it.  A recast keeps the row-major position, so the result at
  (b, h, r, ·) is the grid's array at (4 b + h, r, ·), and that array reads the inputs at (b, h, ·, ·).
-/
import proofs.«143756_j12146167513248_2_alg».proof.Proof.KernelArrays
import Idealize.ShloMosaic.Lib.StableHlo.Run
import Idealize.ShloMosaic.Lib.Pipeline.Value
import Idealize.ShloMosaic.Lib.ValueIdx

noncomputable section

namespace Cert.KernelIdeal.WholeRun

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The recasts read at an entry -/

/-- Batch b and head h as the batch-head 4 b + h. -/
def bh (b h : Fin 4) : Fin 16 := ⟨b.val * 4 + h.val, by have := b.isLt; have := h.isLt; omega⟩

/-- An input recast [4, 4, n, d] → [16, n, d] reads, at (4 b + h, r, e), the input at (b, h, r, e). -/
theorem merge_at {α : Type} {n d : ℕ} (x : (⟨4, ![4, 4, n, d]⟩ : Shape).Idx → α)
    (hc : (⟨4, ![4, 4, n, d]⟩ : Shape).ShapeCasts ⟨3, ![16, n, d]⟩) (b h : Fin 4) (r : Fin n) (e : Fin d) :
    shapeCast ⟨3, ![16, n, d]⟩ x hc (ix3 (bh b h) r e) = x (ix4 b h r e) :=
  shapeCast_apply x hc _ _ (by
    rw [Shape.rowMajor_val_four, Shape.rowMajor_val_three]
    rfl)

/-- A result recast [16, n, d] → [4, 4, n, d] reads, at (b, h, r, e), the array at (4 b + h, r, e). -/
theorem split_at {α : Type} {n d : ℕ} (x : (⟨3, ![16, n, d]⟩ : Shape).Idx → α)
    (hc : (⟨3, ![16, n, d]⟩ : Shape).ShapeCasts ⟨4, ![4, 4, n, d]⟩) (b h : Fin 4) (r : Fin n) (e : Fin d) :
    shapeCast ⟨4, ![4, 4, n, d]⟩ x hc (ix4 b h r e) = x (ix3 (bh b h) r e) :=
  shapeCast_apply x hc _ _ (by
    rw [Shape.rowMajor_val_four, Shape.rowMajor_val_three]
    rfl)

/-! ## The arrays the grid finds -/

theorem V_query (c : Dev nD) :
    V m c main_v0 = shapeCast S16x4096x64 (m ((c : Thread nD τ).loc main_arg0)) shapeCasts_S4x4x4096x64_S16x4096x64 := by
  show StableHlo.after hostOps0 (fun b => m (c, b)) (Proc.devRef .tc main_v0) = _
  after_results
  rfl

theorem V_key (c : Dev nD) :
    V m c main_v1 = shapeCast S16x4096x64 (m ((c : Thread nD τ).loc main_arg1)) shapeCasts_S4x4x4096x64_S16x4096x64 := by
  show StableHlo.after hostOps0 (fun b => m (c, b)) (Proc.devRef .tc main_v1) = _
  after_results
  rfl

theorem V_value (c : Dev nD) :
    V m c main_v2 = shapeCast S16x4096x64 (m ((c : Thread nD τ).loc main_arg2)) shapeCasts_S4x4x4096x64_S16x4096x64 := by
  show StableHlo.after hostOps0 (fun b => m (c, b)) (Proc.devRef .tc main_v2) = _
  after_results
  rfl

/-! ## The program's two results -/

/-- The attention result [4, 4, 4096, 4096] as a function of the query and key inputs. -/
def attnResult (Q K : S4x4x4096x64.Idx → EReal) : S4x4x4096x4096.Idx → EReal :=
  shapeCast S4x4x4096x4096
    (Arrays.attnArray (shapeCast S16x4096x64 Q shapeCasts_S4x4x4096x64_S16x4096x64)
      (shapeCast S16x4096x64 K shapeCasts_S4x4x4096x64_S16x4096x64))
    shapeCasts_S16x4096x4096_S4x4x4096x4096

/-- The output result [4, 4, 4096, 64] as a function of the three inputs. -/
def outResult (Q K W : S4x4x4096x64.Idx → EReal) : S4x4x4096x64.Idx → EReal :=
  shapeCast S4x4x4096x64
    (Arrays.outArray (shapeCast S16x4096x64 Q shapeCasts_S4x4x4096x64_S16x4096x64)
      (shapeCast S16x4096x64 K shapeCasts_S4x4x4096x64_S16x4096x64)
      (shapeCast S16x4096x64 W shapeCasts_S4x4x4096x64_S16x4096x64))
    shapeCasts_S16x4096x64_S4x4x4096x64

/-- The attention result at (b, h, r, c): the step's row attention entry of query row (b, h, r) against (b, h)'s keys. -/
theorem attnResult_at (Q K : S4x4x4096x64.Idx → EReal) (b h : Fin 4) (r c : Fin 4096) :
    attnResult Q K (ix4 b h r c)
      = BlockRow.rowAttn (fun d => Q (ix4 b h r d)) (fun j d => K (ix4 b h j d)) c := by
  unfold attnResult
  rw [split_at]
  unfold Arrays.attnArray Arrays.attnEntry
  exact Arrays.rowAttn_congr (fun d => merge_at Q _ b h r d) (fun j d => merge_at K _ b h j d) rfl

/-- The output result at (b, h, r, d): the step's row output entry for value column (b, h, ·, d). -/
theorem outResult_at (Q K W : S4x4x4096x64.Idx → EReal) (b h : Fin 4) (r : Fin 4096) (d : Fin 64) :
    outResult Q K W (ix4 b h r d)
      = BlockRow.rowOut (fun e => Q (ix4 b h r e)) (fun j e => K (ix4 b h j e)) (fun j => W (ix4 b h j d)) := by
  unfold outResult
  rw [split_at]
  unfold Arrays.outArray Arrays.outEntry
  exact Arrays.rowOut_congr (fun e => merge_at Q _ b h r e) (fun j e => merge_at K _ b h j e)
    (fun j => merge_at W _ b h j d)

/-- After the grid the two recasts read the grid's arrays. -/
theorem tail_out (c : Dev nD) :
    Pipeline.afterTail₀ cfgs (dats m) 0 (V0 m) [hostOps1] c main_v4
      = outResult (m ((c : Thread nD τ).loc main_arg0)) (m ((c : Thread nD τ).loc main_arg1)) (m ((c : Thread nD τ).loc main_arg2)) := by
  have hw : Pipeline.withArrays (cfgs 0).spec c (V0 m c) (fun w => (dats m 0 c).arrAt w (cfgs 0).N) (Proc.devRef .tc main_v3_0)
      = Arrays.outArray (V m c main_v0) (V m c main_v1) (V m c main_v2) :=
    (Pipeline.withArrays_arr spec0 launch0.win.arr_inj c _ _ 3).trans (Arrays.final_out m c)
  unfold Pipeline.afterTail₀
  show StableHlo.after hostOps1 _ (Proc.devRef .tc main_v4) = _
  after_results
  rw [hw, V_query, V_key, V_value]
  rfl

theorem tail_attn (c : Dev nD) :
    Pipeline.afterTail₀ cfgs (dats m) 0 (V0 m) [hostOps1] c main_v5
      = attnResult (m ((c : Thread nD τ).loc main_arg0)) (m ((c : Thread nD τ).loc main_arg1)) := by
  have hw : Pipeline.withArrays (cfgs 0).spec c (V0 m c) (fun w => (dats m 0 c).arrAt w (cfgs 0).N) (Proc.devRef .tc main_v3_1)
      = Arrays.attnArray (V m c main_v0) (V m c main_v1) :=
    (Pipeline.withArrays_arr spec0 launch0.win.arr_inj c _ _ 4).trans (Arrays.final_attn m c)
  unfold Pipeline.afterTail₀
  show StableHlo.after hostOps1 _ (Proc.devRef .tc main_v5) = _
  after_results
  rw [hw, V_query, V_key]
  rfl

/-- THE RUN: every weakly fair execution terminates with the two results at their functions of the inputs, the
    inputs unchanged. -/
theorem run : θ_run defs (onTc (τ := τ) (main (F := Ideal))) ⟨m, fun _ => 0, ρ⟩ fun r => ∀ c : Dev nD,
      r.2.mem ((c.tc : Thread nD τ).loc main_v4)
        = outResult (m ((c : Thread nD τ).loc main_arg0)) (m ((c : Thread nD τ).loc main_arg1)) (m ((c : Thread nD τ).loc main_arg2))
      ∧ r.2.mem ((c.tc : Thread nD τ).loc main_v5)
        = attnResult (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_out m c),
     ((h c).2 main_v5 (Pipeline.mem_restRefs_of main_v5 (by decide) (by decide))).trans (tail_attn m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.WholeRun

end
-- ==== Proof.RealInputs.lean ====
/-
  From the precondition to real entries.

  The precondition says, of each of the three input arrays, that every entry's absolute value is below +∞ (three
  reductions by "and" over all entries, conjoined).  On the extended reals an entry whose absolute value
  `max x (-x)` is below +∞ is neither +∞ nor -∞, so it is a real number.
-/
import proofs.«143756_j12146167513248_2_alg».proof.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace Cert.Pre_finite_inputs.Finite

open Cert.Pre_finite_inputs Idealize.ShloMosaic

variable [Facts]

/-- The rank-0 shape has one index. -/
instance : Subsingleton S_.Idx := ⟨fun a b => funext fun d => d.elim0⟩

/-- The word 0x7F800000 is +∞. -/
theorem posInf : Ideal.ofBits .f32 0x7F800000#32 = ⊤ := by simp [Ideal.ofBits, Ideal.ieee]

/-- An extended real whose absolute value compares below +∞ is a real number. -/
theorem real_of_abs_lt (x : EReal) (h : Ideal.cmp .olt (max x (-x)) ⊤ = 1#1) : ∃ r : ℝ, x = (r : EReal) := by
  induction x using EReal.rec with
  | bot => exact absurd h (by simp [Ideal.cmp])
  | top => exact absurd h (by simp [Ideal.cmp])
  | coe r => exact ⟨r, rfl⟩

/-- One input's clause of the precondition gives that every entry of that input is real. -/
theorem real_of_all (a : FVec Ideal S4x4x4096x64 .f32)
    (h : Host.reduce IntOp.andi
        (cmpf .olt (Host.absf a) (broadcastInDim S4x4x4096x64 ![] Facts.bcast_S_S4x4x4096x64 (constant (F := Ideal) S_ .f32 0x7F800000#32)))
        (constantI S_ 1 1#1) Facts.reducesTo_S4x4x4096x64_S_d0_1_2_3 Facts.h_S_ ValueIdx.ix0 = 1#1)
    (i : S4x4x4096x64.Idx) : ∃ r : ℝ, a i = (r : EReal) := by
  have hi := Host.reduce_andi_all _ _ _ _ _ h i
  refine real_of_abs_lt (a i) ?_
  have hb : broadcastInDim S4x4x4096x64 ![] Facts.bcast_S_S4x4x4096x64 (constant (F := Ideal) S_ .f32 0x7F800000#32) i = ⊤ := by
    rw [broadcastInDim_apply ![] Facts.bcast_S_S4x4x4096x64 _ i ValueIdx.ix0 (fun a => a.elim0)]
    exact posInf
  rw [← hb]
  exact hi

/-- Under the precondition every entry of each of the three inputs is a real number. -/
theorem real_inputs (a0 a1 a2 : FVec Ideal S4x4x4096x64 .f32) (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn] at h0
  obtain ⟨h12, h3⟩ := IntOp.andi_eq_one.1 h0
  obtain ⟨h1, h2⟩ := IntOp.andi_eq_one.1 h12
  exact ⟨real_of_all a0 h1, real_of_all a1 h2, real_of_all a2 h3⟩

end Cert.Pre_finite_inputs.Finite

end
-- ==== Proof.ReferenceRow.lean ====
/-
  What the reference computes, entry by entry, on the extended reals.

  For batch `b`, head `h`, query row `r` and key `c` the reference's score is the features' sum of query entry times
  key entry, scaled AFTERWARDS: `(∑ d, q[b,h,r,d] · k[b,h,c,d]) · s`.  The softmax over the keys subtracts the row's
  maximum (a host reduction with a max body from the word of -∞, then one more max with that word), exponentiates,
  sums the row from the zero word and divides each weight by the sum; the output is the keys' sum of attention entry
  times value entry.  Every stage but the max reduction is read by the generated read-at-an-index lemmas; the max
  reduction over one axis is the fold of max over that axis.
-/
import proofs.«143756_j12146167513248_2_alg».proof.Proof.Gen.ReferenceIdeal.Read
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.RefRow

open Cert.ReferenceIdeal Cert.ReferenceIdeal.Gen Cert.ReferenceIdeal.Read Idealize.ShloMosaic Idealize.ShloMosaic.ValueIdx
open scoped BigOperators

/-! ## One row, in the reference's arrangement -/

/-- A row's score against key `c`: the features' sum of query entry times key entry, then the scale. -/
def rowScore (q : Fin 64 → EReal) (k : Fin 4096 → Fin 64 → EReal) (c : Fin 4096) : EReal :=
  (∑ d : Fin 64, q d * k c d) * Ideal.ofBits .f32 0x3E000000#32

/-- The weight of key `c`: the exponential of its score less the row's maximum. -/
def rowWeight (q : Fin 64 → EReal) (k : Fin 4096 → Fin 64 → EReal) (c : Fin 4096) : EReal :=
  Ideal.exp (rowScore q k c - (Finset.univ : Finset (Fin 4096)).fold max (Ideal.ofBits .f32 0xFF800000#32) (fun j => rowScore q k j))

/-- The attention entry for key `c`: the weight divided by the row's sum of weights, summed from the zero word. -/
def rowAttn (q : Fin 64 → EReal) (k : Fin 4096 → Fin 64 → EReal) (c : Fin 4096) : EReal :=
  Ideal.div (rowWeight q k c) (Ideal.ofBits .f32 0x00000000#32 + ∑ j : Fin 4096, rowWeight q k j)

/-- The output entry for a value column `v`: the keys' sum of attention entry times value entry. -/
def rowOut (q : Fin 64 → EReal) (k : Fin 4096 → Fin 64 → EReal) (v : Fin 4096 → EReal) : EReal :=
  ∑ j : Fin 4096, rowAttn q k j * v j

/-! ## The stages at an entry -/

variable (x0 x1 x2 : (⟨S4x4x4096x64, .f32⟩ : BufTy).Contents (Elt Ideal))

/-- Query row (b, h, r) and the key matrix of (b, h). -/
abbrev qrow (b h : Fin 4) (r : Fin 4096) : Fin 64 → EReal := fun d => x0 (ix4 b h r d)
abbrev kmat (b h : Fin 4) : Fin 4096 → Fin 64 → EReal := fun j d => x1 (ix4 b h j d)

theorem score_at (b h : Fin 4) (r c : Fin 4096) :
    val_main_v2 (F := Ideal) x0 x1 (ix4 b h r c) = rowScore (qrow x0 b h r) (kmat x1 b h) c := by
  have el : ∀ k : Fin 64, lidx_main_v0 (ix4 b h r c) k = ix4 b h r k := fun k => funext fun a => Fin.ext (by
    match a with | ⟨0, _⟩ => rfl | ⟨1, _⟩ => rfl | ⟨2, _⟩ => rfl | ⟨3, _⟩ => rfl)
  have er : ∀ k : Fin 64, ridx_main_v0 (ix4 b h r c) k = ix4 b h c k := fun k => funext fun a => Fin.ext (by
    match a with | ⟨0, _⟩ => rfl | ⟨1, _⟩ => rfl | ⟨2, _⟩ => rfl | ⟨3, _⟩ => rfl)
  rw [val_main_v2_apply, val_main_v0_apply, val_main_v1_apply, val_main_cst_apply]
  simp only [el, er]
  rfl

/-- The index of row (b, h, r) with key `k` put back is (b, h, r, k). -/
theorem lift_key (hR : S4x4x4096x4096.Reduces [3] S4x4x4096) (b h : Fin 4) (r : Fin 4096)
    (k : Fin (S4x4x4096x4096.size 3)) : hR.lift (ix3 b h r) k = ix4 b h r (⟨k.val, k.isLt⟩ : Fin 4096) := by
  funext a; apply Fin.ext
  match a with
  | ⟨0, _⟩ => rfl
  | ⟨1, _⟩ => rfl
  | ⟨2, _⟩ => rfl
  | ⟨3, _⟩ => rfl

/-- A fold of max is above its starting value, so one more max with that value changes nothing. -/
theorem max_fold_self {n : ℕ} (a : EReal) (f : Fin n → EReal) :
    max a ((Finset.univ : Finset (Fin n)).fold max a f) = (Finset.univ : Finset (Fin n)).fold max a f :=
  max_eq_right ((Finset.le_fold_max a).2 (Or.inl le_rfl))

/-- The row's maximum: the fold of max from the word of -∞ over the row's scores (one more max with that word
    changes nothing: the fold is already above its starting value). -/
theorem rowmax_at (b h : Fin 4) (r : Fin 4096) :
    val_main_v5 (F := Ideal) x0 x1 (ix3 b h r)
      = (Finset.univ : Finset (Fin 4096)).fold max (Ideal.ofBits .f32 0xFF800000#32)
          (fun j => rowScore (qrow x0 b h r) (kmat x1 b h) j) := by
  have hR : S4x4x4096x4096.Reduces [3] S4x4x4096 := by decide
  rw [val_main_v5_apply, val_main_v4_apply, val_main_cst_1_apply]
  unfold val_main_v3
  rw [Host.reduce_eq_fold_single FloatOps.maximumf _ _ reducesTo_S4x4x4096x4096_S4x4x4096_d3 hR h_S_]
  have hf : (val_main_v2 (F := Ideal) x0 x1 ∘ hR.lift (ix3 b h r))
      = fun j : Fin 4096 => rowScore (qrow x0 b h r) (kmat x1 b h) j := funext fun k => by
    show val_main_v2 (F := Ideal) x0 x1 (hR.lift (ix3 b h r) k) = _
    rw [lift_key hR b h r k]
    exact score_at x0 x1 b h r ⟨k.val, k.isLt⟩
  show max (Ideal.ofBits .f32 0xFF800000#32)
      (Finset.fold max (Ideal.ofBits .f32 0xFF800000#32) (val_main_v2 (F := Ideal) x0 x1 ∘ hR.lift (ix3 b h r)) (Finset.univ : Finset (Fin 4096))) = _
  rw [hf]
  exact max_fold_self (n := 4096) _ _

theorem weight_at (b h : Fin 4) (r c : Fin 4096) :
    val_main_v9 (F := Ideal) x0 x1 (ix4 b h r c) = rowWeight (qrow x0 b h r) (kmat x1 b h) c := by
  have e : idx_main_v6 (idx_main_v7 (ix4 b h r c)) = ix3 b h r := funext fun a => Fin.ext (by
    match a with | ⟨0, _⟩ => rfl | ⟨1, _⟩ => rfl | ⟨2, _⟩ => rfl)
  rw [val_main_v9_apply, val_main_v8_apply, val_main_v7_apply, val_main_v6_apply, e, rowmax_at, score_at]
  rfl

theorem attn_at (b h : Fin 4) (r c : Fin 4096) :
    val_main_v13 (F := Ideal) x0 x1 (ix4 b h r c) = rowAttn (qrow x0 b h r) (kmat x1 b h) c := by
  have e : idx_main_v11 (idx_main_v12 (ix4 b h r c)) = ix3 b h r := funext fun a => Fin.ext (by
    match a with | ⟨0, _⟩ => rfl | ⟨1, _⟩ => rfl | ⟨2, _⟩ => rfl)
  have ek : ∀ k : Fin 4096, idx_main_v10 (ix3 b h r) k = ix4 b h r k := fun k => funext fun a => Fin.ext (by
    match a with | ⟨0, _⟩ => rfl | ⟨1, _⟩ => rfl | ⟨2, _⟩ => rfl | ⟨3, _⟩ => rfl)
  rw [val_main_v13_apply, val_main_v12_apply, val_main_v11_apply, e, val_main_v10_apply, val_main_cst_2_apply, weight_at]
  simp only [ek, weight_at]
  rfl

theorem out_at (b h : Fin 4) (r : Fin 4096) (d : Fin 64) :
    val_main_v14 (F := Ideal) x0 x1 x2 (ix4 b h r d)
      = rowOut (qrow x0 b h r) (kmat x1 b h) (fun j => x2 (ix4 b h j d)) := by
  have el : ∀ k : Fin 4096, lidx_main_v14 (ix4 b h r d) k = ix4 b h r k := fun k => funext fun a => Fin.ext (by
    match a with | ⟨0, _⟩ => rfl | ⟨1, _⟩ => rfl | ⟨2, _⟩ => rfl | ⟨3, _⟩ => rfl)
  have er : ∀ k : Fin 4096, ridx_main_v14 (ix4 b h r d) k = ix4 b h k d := fun k => funext fun a => Fin.ext (by
    match a with | ⟨0, _⟩ => rfl | ⟨1, _⟩ => rfl | ⟨2, _⟩ => rfl | ⟨3, _⟩ => rfl)
  rw [val_main_v14_apply]
  simp only [el, er, attn_at]
  rfl

end Cert.ReferenceIdeal.RefRow

end
-- ==== Proof.SoftmaxAlgebra.lean ====
import Idealize.ShloMosaic.PureOps.Ideal

/-!
# One row of softmax attention, normalised in two ways

A query row with real entries `q d`, keys `k j d`, a real scale `c` and values `v j` give

* scores `s j`, the scaled inner products of the query with each key;
* the row maximum `m = max_j s j`;
* unnormalised weights `e j = exp (s j - m)`, each a positive real;
* their sum `L = ∑ j, e j`, a positive real;
* attention weights `e j / L` and the output `∑ j, (e j / L) * v j`.

Two computations of these are compared. One scales each query entry before the inner product
and multiplies by the reciprocal `1 / L` after summing against the values; the other scales the
inner product afterwards and divides each weight by `L` before summing. They agree because a real
factor distributes over a finite sum of reals: `∑ d, (q d * c) * k j d = (∑ d, q d * k j d) * c`
and `(∑ j, e j * v j) * (1 / L) = ∑ j, (e j * (1 / L)) * v j`.

The quantities live in the extended reals, where distributivity fails at the infinities, so
every statement is about real data coerced to extended reals: over a nonempty finite set of keys
the maximum of real scores is real, each `exp (s j - m)` is a positive real, and so is their sum,
which is therefore neither zero nor infinite. Each side is brought to the coercion of one real
expression and the identity is then an identity of real numbers.
-/

noncomputable section

open Idealize.ShloMosaic
open scoped BigOperators

namespace Attention

variable {ι κ : Type*} [Fintype ι] [Fintype κ]

/-! ### The quantities of one softmax row -/

/-- The score of key `j` when each query entry is multiplied by the scale `c` before the inner
    product with the key: `∑ d, (q d * c) * k j d`. -/
def scoreScaledQuery (q : ι → EReal) (k : κ → ι → EReal) (c : EReal) (j : κ) : EReal :=
  ∑ d, (q d * c) * k j d

/-- The score of key `j` when the inner product of query and key is multiplied by the scale `c`
    afterwards: `(∑ d, q d * k j d) * c`. -/
def scoreScaledSum (q : ι → EReal) (k : κ → ι → EReal) (c : EReal) (j : κ) : EReal :=
  (∑ d, q d * k j d) * c

/-- The row maximum `max_j S j` of the scores, as the fold of `max` over all keys starting from
    `-∞` (the neutral element of `max` on the extended reals). -/
def rowMax (S : κ → EReal) : EReal := Finset.univ.fold max ⊥ S

/-- The unnormalised softmax weight of key `j`: `exp (S j - max_i S i)`. -/
def unnorm (S : κ → EReal) (j : κ) : EReal := Ideal.exp (S j - rowMax S)

/-- The softmax denominator: the sum `∑ j, exp (S j - max_i S i)` of the unnormalised weights. -/
def denom (S : κ → EReal) : EReal := ∑ j, unnorm S j

/-- The attention weight of key `j`, normalised by multiplying the unnormalised weight with the
    reciprocal `1 / L` of the row sum `L`. -/
def attnK (S : κ → EReal) (j : κ) : EReal := unnorm S j * Ideal.div 1 (denom S)

/-- The output entry, normalised last: the unnormalised weights are summed against the values
    and the total is multiplied by the reciprocal `1 / L` of the row sum. -/
def outK (S : κ → EReal) (v : κ → EReal) : EReal :=
  (∑ j, unnorm S j * v j) * Ideal.div 1 (denom S)

/-- The attention weight of key `j`, normalised by dividing the unnormalised weight by the row
    sum, the row sum being accumulated from `0`: `e j / (0 + L)`. -/
def attnR (S : κ → EReal) (j : κ) : EReal := Ideal.div (unnorm S j) (0 + denom S)

/-- The output entry, normalised first: the sum over keys of normalised weight times value. -/
def outR (S : κ → EReal) (v : κ → EReal) : EReal := ∑ j, attnR S j * v j

/-! ### Finite sums and maxima of reals inside the extended reals -/

/-- The coercion of the reals into the extended reals commutes with finite sums. -/
theorem coe_sum {α : Type*} (s : Finset α) (f : α → ℝ) :
    ((∑ a ∈ s, f a : ℝ) : EReal) = ∑ a ∈ s, (f a : EReal) := by
  classical
  refine Finset.induction_on s ?_ ?_
  · simp
  · intro a s ha ih
    rw [Finset.sum_insert ha, Finset.sum_insert ha, EReal.coe_add, ih]

/-- Both ways of scaling give the same real score, `(∑ d, q d * k j d) * c`: the real factor `c`
    is pulled out of the finite sum. This is the first use of distributivity. -/
theorem scoreScaledQuery_coe (q : ι → ℝ) (k : κ → ι → ℝ) (c : ℝ) (j : κ) :
    scoreScaledQuery (fun d => (q d : EReal)) (fun j d => (k j d : EReal)) (c : EReal) j
      = (((∑ d, q d * k j d) * c : ℝ) : EReal) := by
  unfold scoreScaledQuery
  rw [Finset.sum_mul, coe_sum]
  refine Finset.sum_congr rfl ?_
  intro d _
  rw [← EReal.coe_mul, ← EReal.coe_mul]
  congr 1
  ring

/-- Scaling the inner product afterwards gives the real score `(∑ d, q d * k j d) * c`. -/
theorem scoreScaledSum_coe (q : ι → ℝ) (k : κ → ι → ℝ) (c : ℝ) (j : κ) :
    scoreScaledSum (fun d => (q d : EReal)) (fun j d => (k j d : EReal)) (c : EReal) j
      = (((∑ d, q d * k j d) * c : ℝ) : EReal) := by
  unfold scoreScaledSum
  rw [EReal.coe_mul, coe_sum]
  congr 1

/-- The maximum of finitely many real scores over a nonempty set of keys is a real number: the
    fold of `max` from `-∞` equals the coercion of the real supremum of the scores. -/
theorem rowMax_coe [Nonempty κ] (s : κ → ℝ) :
    rowMax (fun j => (s j : EReal))
      = ((Finset.univ.sup' Finset.univ_nonempty s : ℝ) : EReal) := by
  unfold rowMax
  apply le_antisymm
  · rw [Finset.fold_max_le]
    refine ⟨bot_le, ?_⟩
    intro x hx
    exact EReal.coe_le_coe_iff.2 (Finset.le_sup' s hx)
  · rw [Finset.le_fold_max]
    right
    obtain ⟨x, hx, hxs⟩ := Finset.exists_mem_eq_sup' Finset.univ_nonempty s
    exact ⟨x, hx, by rw [hxs]⟩

/-! ### The row quantities at real scores -/

/-- The real row maximum of real scores. -/
def realMax [Nonempty κ] (s : κ → ℝ) : ℝ := Finset.univ.sup' Finset.univ_nonempty s

/-- The real row sum `∑ j, exp (s j - max_i s i)` of real scores. -/
def realDenom [Nonempty κ] (s : κ → ℝ) : ℝ := ∑ j, Real.exp (s j - realMax s)

/-- The real row sum is positive: it is a sum over a nonempty set of positive terms. -/
theorem realDenom_pos [Nonempty κ] (s : κ → ℝ) : 0 < realDenom s := by
  unfold realDenom
  exact Finset.sum_pos (fun j _ => Real.exp_pos _) Finset.univ_nonempty

/-- At real scores each unnormalised weight is the real number `exp (s j - max_i s i)`. -/
theorem unnorm_coe [Nonempty κ] (s : κ → ℝ) (j : κ) :
    unnorm (fun j => (s j : EReal)) j = ((Real.exp (s j - realMax s) : ℝ) : EReal) := by
  unfold unnorm
  rw [rowMax_coe, ← EReal.coe_sub, Ideal.exp_coe]
  rfl

/-- At real scores the denominator is the real row sum. -/
theorem denom_coe [Nonempty κ] (s : κ → ℝ) :
    denom (fun j => (s j : EReal)) = ((realDenom s : ℝ) : EReal) := by
  unfold denom realDenom
  rw [coe_sum]
  exact Finset.sum_congr rfl (fun j _ => unnorm_coe s j)

/-- The reciprocal of a nonzero real, taken in the extended reals, is the real reciprocal. -/
theorem div_one_coe {L : ℝ} (h : L ≠ 0) :
    Ideal.div 1 (L : EReal) = ((1 / L : ℝ) : EReal) := by
  rw [Ideal.div_coe h, one_mul]

/-! ### The two normalisations agree -/

/-- At real scores, multiplying a weight by the reciprocal of the row sum and dividing it by
    the row sum (accumulated from zero) give the same value `e j * (1 / L)`: the row sum `L` is a
    nonzero real. -/
theorem attn_eq_of_real [Nonempty κ] (s : κ → ℝ) (j : κ) :
    attnK (fun j => (s j : EReal)) j = attnR (fun j => (s j : EReal)) j := by
  have hL : realDenom s ≠ 0 := (realDenom_pos s).ne'
  unfold attnK attnR
  rw [denom_coe, zero_add, div_one_coe hL, Ideal.div_coe hL]

/-- At real scores and real values the two outputs agree: with `e j` the unnormalised weights and
    `L` their sum, `(∑ j, e j * v j) * (1 / L) = ∑ j, (e j * (1 / L)) * v j`, the real factor
    `1 / L` distributing over the finite sum. This is the second use of distributivity. -/
theorem out_eq_of_real [Nonempty κ] (s : κ → ℝ) (v : κ → ℝ) :
    outK (fun j => (s j : EReal)) (fun j => (v j : EReal))
      = outR (fun j => (s j : EReal)) (fun j => (v j : EReal)) := by
  have hL : realDenom s ≠ 0 := (realDenom_pos s).ne'
  have hK : outK (fun j => (s j : EReal)) (fun j => (v j : EReal))
      = (((∑ j, Real.exp (s j - realMax s) * v j) * (1 / realDenom s) : ℝ) : EReal) := by
    unfold outK
    rw [denom_coe, div_one_coe hL, EReal.coe_mul, coe_sum]
    congr 1
    refine Finset.sum_congr rfl ?_
    intro j _
    rw [unnorm_coe, EReal.coe_mul]
  have hR : outR (fun j => (s j : EReal)) (fun j => (v j : EReal))
      = ((∑ j, Real.exp (s j - realMax s) * (1 / realDenom s) * v j : ℝ) : EReal) := by
    unfold outR attnR
    rw [coe_sum]
    refine Finset.sum_congr rfl ?_
    intro j _
    rw [denom_coe, zero_add, Ideal.div_coe hL, unnorm_coe, EReal.coe_mul, EReal.coe_mul]
  rw [hK, hR, Finset.sum_mul]
  congr 1
  refine Finset.sum_congr rfl ?_
  intro j _
  ring

/-- The query-scaled score function is the real-valued function `j ↦ (∑ d, q d * k j d) * c`,
    coerced. -/
theorem scores_eq (q : ι → ℝ) (k : κ → ι → ℝ) (c : ℝ) :
    scoreScaledQuery (fun d => (q d : EReal)) (fun j d => (k j d : EReal)) (c : EReal)
      = fun j => (((∑ d, q d * k j d) * c : ℝ) : EReal) :=
  funext (scoreScaledQuery_coe q k c)

/-- The sum-scaled score function is the real-valued function `j ↦ (∑ d, q d * k j d) * c`,
    coerced: the same function as the query-scaled one. -/
theorem scores_eq' (q : ι → ℝ) (k : κ → ι → ℝ) (c : ℝ) :
    scoreScaledSum (fun d => (q d : EReal)) (fun j d => (k j d : EReal)) (c : EReal)
      = fun j => (((∑ d, q d * k j d) * c : ℝ) : EReal) :=
  funext (scoreScaledSum_coe q k c)

/-- **Attention weights agree.** For real queries, keys and scale over a nonempty finite set of
    keys, the weight computed from query-scaled scores by multiplying with the reciprocal of the
    row sum equals the weight computed from sum-scaled scores by dividing by the row sum. Both
    score functions are one real-valued function (a real factor distributes over a finite sum),
    the row maximum is real, every `exp (s j - m)` is a positive real and so is their sum; on a
    nonzero real, multiplying by the reciprocal and dividing coincide. -/
theorem attn_eq [Nonempty κ] (q : ι → ℝ) (k : κ → ι → ℝ) (c : ℝ) (j : κ) :
    attnK (scoreScaledQuery (fun d => (q d : EReal)) (fun j d => (k j d : EReal)) (c : EReal)) j
      = attnR (scoreScaledSum (fun d => (q d : EReal)) (fun j d => (k j d : EReal)) (c : EReal)) j := by
  rw [scores_eq, scores_eq']
  exact attn_eq_of_real (fun j => (∑ d, q d * k j d) * c) j

/-- **Outputs agree.** For real queries, keys, scale and values over a nonempty finite set of
    keys, summing unnormalised weights against the values and then multiplying by the reciprocal
    of the row sum equals summing the normalised weights against the values. All quantities are
    finite reals, so the reciprocal of the row sum distributes over the finite sum. -/
theorem out_eq [Nonempty κ] (q : ι → ℝ) (k : κ → ι → ℝ) (c : ℝ) (v : κ → ℝ) :
    outK (scoreScaledQuery (fun d => (q d : EReal)) (fun j d => (k j d : EReal)) (c : EReal))
        (fun j => (v j : EReal))
      = outR (scoreScaledSum (fun d => (q d : EReal)) (fun j d => (k j d : EReal)) (c : EReal))
        (fun j => (v j : EReal)) := by
  rw [scores_eq, scores_eq']
  exact out_eq_of_real (fun j => (∑ d, q d * k j d) * c) v

end Attention
-- ==== Proof.RowsAgree.lean ====
/-
  One softmax row, the step's way and the reference's way, agree on real data.

  The step scales the query entries before the contraction and multiplies by the reciprocal of the row sum; the
  reference scales the contraction afterwards and divides by the row sum.  With the words of -∞, 1, 0 and the scale
  1/8 read as the extended reals they denote, the two are the two normalisations of one softmax row, which agree
  when the query, key and value entries are real numbers.
-/
import proofs.«143756_j12146167513248_2_alg».proof.Proof.BlockRow
import proofs.«143756_j12146167513248_2_alg».proof.Proof.ReferenceRow
import proofs.«143756_j12146167513248_2_alg».proof.Proof.SoftmaxAlgebra

noncomputable section

namespace Cert.RowsAgree

open Idealize.ShloMosaic
open scoped BigOperators

/-! ## The four words -/

/-- The word 0xFF800000 is -∞. -/
theorem negInf : Ideal.ofBits .f32 0xFF800000#32 = ⊥ := by simp [Ideal.ofBits, Ideal.ieee]

/-- The word 0x3F800000 is 1. -/
theorem one : Ideal.ofBits .f32 0x3F800000#32 = 1 := by
  simp [Ideal.ofBits, Ideal.ieee, -EReal.coe_mul]
  norm_num

/-- The scale's word 0x3E000000 is the real 1/8. -/
theorem scale : Ideal.ofBits .f32 0x3E000000#32 = ((1 / 8 : ℝ) : EReal) := by
  simp [Ideal.ofBits, Ideal.ieee, -EReal.coe_mul]
  norm_num

/-! ## Each side is one of the two normalisations -/

theorem step_attn (q : Fin 64 → EReal) (k : Fin 4096 → Fin 64 → EReal) (c : Fin 4096) :
    Cert.KernelIdeal.BlockRow.rowAttn q k c
      = Attention.attnK (Attention.scoreScaledQuery q k (Ideal.ofBits .f32 0x3E000000#32)) c := by
  unfold Cert.KernelIdeal.BlockRow.rowAttn Cert.KernelIdeal.BlockRow.rowRecip Cert.KernelIdeal.BlockRow.rowWeight
    Cert.KernelIdeal.BlockRow.rowScore Attention.attnK Attention.denom Attention.unnorm Attention.rowMax
    Attention.scoreScaledQuery
  rw [negInf, one]

theorem step_out (q : Fin 64 → EReal) (k : Fin 4096 → Fin 64 → EReal) (v : Fin 4096 → EReal) :
    Cert.KernelIdeal.BlockRow.rowOut q k v
      = Attention.outK (Attention.scoreScaledQuery q k (Ideal.ofBits .f32 0x3E000000#32)) v := by
  unfold Cert.KernelIdeal.BlockRow.rowOut Cert.KernelIdeal.BlockRow.rowRecip Cert.KernelIdeal.BlockRow.rowWeight
    Cert.KernelIdeal.BlockRow.rowScore Attention.outK Attention.denom Attention.unnorm Attention.rowMax
    Attention.scoreScaledQuery
  rw [negInf, one]

theorem ref_attn (q : Fin 64 → EReal) (k : Fin 4096 → Fin 64 → EReal) (c : Fin 4096) :
    Cert.ReferenceIdeal.RefRow.rowAttn q k c
      = Attention.attnR (Attention.scoreScaledSum q k (Ideal.ofBits .f32 0x3E000000#32)) c := by
  unfold Cert.ReferenceIdeal.RefRow.rowAttn Cert.ReferenceIdeal.RefRow.rowWeight Cert.ReferenceIdeal.RefRow.rowScore
    Attention.attnR Attention.denom Attention.unnorm Attention.rowMax Attention.scoreScaledSum
  rw [negInf, Ideal.ofBits_zero_f32]

theorem ref_out (q : Fin 64 → EReal) (k : Fin 4096 → Fin 64 → EReal) (v : Fin 4096 → EReal) :
    Cert.ReferenceIdeal.RefRow.rowOut q k v
      = Attention.outR (Attention.scoreScaledSum q k (Ideal.ofBits .f32 0x3E000000#32)) v := by
  unfold Cert.ReferenceIdeal.RefRow.rowOut Attention.outR
  exact Finset.sum_congr rfl fun j _ => by rw [ref_attn]

/-! ## The rows agree -/

/-- The attention entries agree when the query row and the keys are real. -/
theorem attn_agree (q : Fin 64 → EReal) (k : Fin 4096 → Fin 64 → EReal)
    (hq : ∀ d, ∃ r : ℝ, q d = (r : EReal)) (hk : ∀ j d, ∃ r : ℝ, k j d = (r : EReal)) (c : Fin 4096) :
    Cert.KernelIdeal.BlockRow.rowAttn q k c = Cert.ReferenceIdeal.RefRow.rowAttn q k c := by
  choose q' hq' using hq
  choose k' hk' using hk
  obtain rfl : q = fun d => (q' d : EReal) := funext hq'
  obtain rfl : k = fun j d => (k' j d : EReal) := funext fun j => funext (hk' j)
  rw [step_attn, ref_attn, scale]
  exact Attention.attn_eq q' k' (1 / 8) c

/-- The output entries agree when the query row, the keys and the value column are real. -/
theorem out_agree (q : Fin 64 → EReal) (k : Fin 4096 → Fin 64 → EReal) (v : Fin 4096 → EReal)
    (hq : ∀ d, ∃ r : ℝ, q d = (r : EReal)) (hk : ∀ j d, ∃ r : ℝ, k j d = (r : EReal))
    (hv : ∀ j, ∃ r : ℝ, v j = (r : EReal)) :
    Cert.KernelIdeal.BlockRow.rowOut q k v = Cert.ReferenceIdeal.RefRow.rowOut q k v := by
  choose q' hq' using hq
  choose k' hk' using hk
  choose v' hv' using hv
  obtain rfl : q = fun d => (q' d : EReal) := funext hq'
  obtain rfl : k = fun j d => (k' j d : EReal) := funext fun j => funext (hk' j)
  obtain rfl : v = fun j => (v' j : EReal) := funext hv'
  rw [step_out, ref_out, scale]
  exact Attention.out_eq q' k' (1 / 8) v'

end Cert.RowsAgree

end
-- ==== Proof.ResultsAgree.lean ====
/-
  The kernel program's two results are the reference's, entry by entry, when the inputs are real.

  At (b, h, r, ·) the kernel program's attention and output results are the step's row values of query row (b, h, r)
  against the keys and values of (b, h); the reference's are its row values of the same data; the two rows agree on
  real data.
-/
import proofs.«143756_j12146167513248_2_alg».proof.Proof.KernelRun
import proofs.«143756_j12146167513248_2_alg».proof.Proof.ReferenceRow
import proofs.«143756_j12146167513248_2_alg».proof.Proof.RowsAgree

noncomputable section

namespace Cert.ResultsAgree

open Idealize.ShloMosaic Idealize.ShloMosaic.ValueIdx

/-- The attention results agree. -/
theorem attn_results (Q K : Cert.KernelIdeal.S4x4x4096x64.Idx → EReal)
    (hQ : ∀ i, ∃ r : ℝ, Q i = (r : EReal)) (hK : ∀ i, ∃ r : ℝ, K i = (r : EReal)) :
    Cert.KernelIdeal.WholeRun.attnResult Q K = Cert.ReferenceIdeal.Read.val_main_v13 (F := Ideal) Q K := by
  funext i
  obtain ⟨b, h, r, c, rfl⟩ : ∃ (b h : Fin 4) (r c : Fin 4096), i = ix4 b h r c := ⟨i 0, i 1, i 2, i 3, eq_ix4 i⟩
  rw [Cert.KernelIdeal.WholeRun.attnResult_at]
  refine Eq.trans ?_ (Cert.ReferenceIdeal.RefRow.attn_at Q K b h r c).symm
  exact Cert.RowsAgree.attn_agree _ _ (fun d => hQ _) (fun j d => hK _) c

/-- The output results agree. -/
theorem out_results (Q K W : Cert.KernelIdeal.S4x4x4096x64.Idx → EReal)
    (hQ : ∀ i, ∃ r : ℝ, Q i = (r : EReal)) (hK : ∀ i, ∃ r : ℝ, K i = (r : EReal))
    (hW : ∀ i, ∃ r : ℝ, W i = (r : EReal)) :
    Cert.KernelIdeal.WholeRun.outResult Q K W = Cert.ReferenceIdeal.Read.val_main_v14 (F := Ideal) Q K W := by
  funext i
  obtain ⟨b, h, r, d, rfl⟩ : ∃ (b h : Fin 4) (r : Fin 4096) (d : Fin 64), i = ix4 b h r d := ⟨i 0, i 1, i 2, i 3, eq_ix4 i⟩
  rw [Cert.KernelIdeal.WholeRun.outResult_at]
  refine Eq.trans ?_ (Cert.ReferenceIdeal.RefRow.out_at Q K W b h r d).symm
  exact Cert.RowsAgree.out_agree _ _ _ (fun e => hQ _) (fun j e => hK _) (fun j => hW _)

end Cert.ResultsAgree

end
-- ==== Proof.lean ====
/-
  The certificate of a full-softmax attention kernel against its reference.

  The kernel program recasts q, k, v [4, 4, 4096, 64] as [16, 4096, 64], runs a 16 × 16 grid whose step (g, p)
  computes rows 256 p … 256 p + 255 of batch-head g — scores `∑ d (q·1/8)·k`, the row maximum, the weights
  `exp (score - max)`, their sum, its reciprocal, the attention block `weight · reciprocal` and the output block
  `(∑ weight · v) · reciprocal` — and recasts the two arrays back.  The reference scales the scores after the
  contraction, divides each weight by the row sum, and sums attention times value.  On the extended reals the two
  agree where a real factor may be moved across a finite sum and multiplying by a reciprocal is dividing: when every
  quantity is a finite real, which the precondition (every input entry finite) gives — the scores are then real, the
  row maximum over 4096 keys is real, every weight is a positive real and so is the row sum.

  The three frames are the generated ones (the reference's is its generated run with the results dropped); the
  idealized kernel is the kernel's own text read on the extended reals, so `preserves` is trivial; `algebraic` puts
  the kernel program's run (the generated frame run read through the blocks, the cover and the two recasts) beside
  the reference's generated run.
-/
import proofs.«143756_j12146167513248_2_alg».proof.Defs
import proofs.«143756_j12146167513248_2_alg».proof.Proof.Gen.Kernel
import proofs.«143756_j12146167513248_2_alg».proof.Proof.Gen.Kernel.Skeleton
import proofs.«143756_j12146167513248_2_alg».proof.Proof.Gen.Kernel.Launch
import proofs.«143756_j12146167513248_2_alg».proof.Proof.Gen.Kernel.Points
import proofs.«143756_j12146167513248_2_alg».proof.Proof.Gen.Kernel.Frame
import proofs.«143756_j12146167513248_2_alg».proof.Proof.Gen.KernelIdeal
import proofs.«143756_j12146167513248_2_alg».proof.Proof.Gen.KernelIdeal.Skeleton
import proofs.«143756_j12146167513248_2_alg».proof.Proof.Gen.KernelIdeal.Launch
import proofs.«143756_j12146167513248_2_alg».proof.Proof.Gen.KernelIdeal.Points
import proofs.«143756_j12146167513248_2_alg».proof.Proof.Gen.KernelIdeal.Frame
import proofs.«143756_j12146167513248_2_alg».proof.Proof.Gen.ReferenceIdeal
import proofs.«143756_j12146167513248_2_alg».proof.Proof.Gen.Pre_finite_inputs
import proofs.«143756_j12146167513248_2_alg».proof.Proof.Gen.ReferenceIdeal.Run
import proofs.«143756_j12146167513248_2_alg».proof.Proof.Gen.ReferenceIdeal.Read
import proofs.«143756_j12146167513248_2_alg».proof.Proof.KernelRun
import proofs.«143756_j12146167513248_2_alg».proof.Proof.RealInputs
import proofs.«143756_j12146167513248_2_alg».proof.Proof.ResultsAgree
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealized kernel is the kernel's own text read on the extended reals: there is nothing to preserve. -/
theorem preserves : Cert.preserves_Kernel_KernelIdeal := trivial

/-- Both programs run; the kernel program's results are its functions of the inputs, the reference's are its
    composed term, and on real inputs — the precondition's — the two are equal entry by entry. -/
theorem algebraic : Cert.algebraic_KernelIdeal_ReferenceIdeal := by
  intro m ρ m' ρ' hpre hagree
  refine ⟨fun c => Cert.KernelIdeal.WholeRun.outResult
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
      fun c => Cert.KernelIdeal.WholeRun.attnResult
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      Cert.KernelIdeal.WholeRun.run m ρ, ?_⟩
  refine (θ_run Cert.ReferenceIdeal.defs _ _).mono (fun _ h c => ?_) (Cert.ReferenceIdeal.Value.run (F := Ideal) m' ρ')
  obtain ⟨hq, hk, hv⟩ := Cert.Pre_finite_inputs.Finite.real_inputs _ _ _ (hpre c)
  refine ⟨?_, ?_, (h c).2.2⟩
  · rw [(h c).1, Cert.ReferenceIdeal.Read.val_main_v14_eq, (hagree c).1, (hagree c).2.1, (hagree c).2.2]
    exact (Cert.ResultsAgree.out_results _ _ _ hq hk hv).symm
  · rw [(h c).2.1, Cert.ReferenceIdeal.Read.val_main_v13_eq, (hagree c).1, (hagree c).2.1]
    exact (Cert.ResultsAgree.attn_results _ _ hq hk).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
